-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S256 .f32) (main_arg6 : FVec F S256x32 .f32) (main_arg7 : FVec F S32 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x256 .f32) (main_arg3 : FVec F S256 .f32) (main_arg4 : FVec F S256x256 .f32) (main_arg5 : FVec F S256 .f32) (main_arg6 : FVec F S256x32 .f32) (main_arg7 : FVec F S32 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x32 : Shape := ⟨2, ![256, 32]⟩
abbrev S32 : Shape := ⟨1, ![32]⟩
abbrev S1x256 : Shape := ⟨2, ![1, 256]⟩
abbrev S1x32 : Shape := ⟨2, ![1, 32]⟩
abbrev S100000x32 : Shape := ⟨2, ![100000, 32]⟩
abbrev S2000x256 : Shape := ⟨2, ![2000, 256]⟩
abbrev S2000x32 : Shape := ⟨2, ![2000, 32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩

abbrev nBuf : Space → Nat
  | .hbm => 88
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x32, .f32⟩
  | .hbm, ⟨7, _⟩ => ⟨S32, .f32⟩
  | .hbm, ⟨8, _⟩ => ⟨S1x256, .f32⟩
  | .hbm, ⟨9, _⟩ => ⟨S1x256, .f32⟩
  | .hbm, ⟨10, _⟩ => ⟨S1x32, .f32⟩
  | .hbm, ⟨11, _⟩ => ⟨S100000x32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000, .f32⟩
  | .hbm, ⟨55, _⟩ => ⟨S1700000x1, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x32, .f32⟩
  | .hbm, ⟨65, _⟩ => ⟨S1700000x32, .f32⟩
  | .hbm, ⟨66, _⟩ => ⟨S1700000x32, .f32⟩
  | .hbm, ⟨67, _⟩ => ⟨S_, .f32⟩
  | .hbm, ⟨68, _⟩ => ⟨S100000x32, .f32⟩
  | .hbm, ⟨69, _⟩ => ⟨S1700000x1, .i32⟩
  | .hbm, ⟨70, _⟩ => ⟨S100000x32, .f32⟩
  | .hbm, ⟨71, _⟩ => ⟨S100000x32, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x32, .f32⟩
  | .hbm, ⟨81, _⟩ => ⟨S1700000x32, .f32⟩
  | .hbm, ⟨82, _⟩ => ⟨S1700000x32, .f32⟩
  | .hbm, ⟨83, _⟩ => ⟨S_, .f32⟩
  | .hbm, ⟨84, _⟩ => ⟨S100000x32, .f32⟩
  | .hbm, ⟨85, _⟩ => ⟨S1700000x1, .i32⟩
  | .hbm, ⟨86, _⟩ => ⟨S100000x32, .f32⟩
  | .hbm, ⟨87, _⟩ => ⟨S100000x32, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x32, .f32⟩
  | .local _ .vmem, ⟨7, _⟩ => ⟨S1x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S256_S1x256 : S256.ShapeCasts S1x256
  shapeCasts_S32_S1x32 : S32.ShapeCasts S1x32
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S2000x32_S2000x32 : S2000x32.ShapeCasts S2000x32
  dot_S2000x256_S256x256_S2000x256_1_0_0_1_n_n_wf : DotDims.WF S2000x256 S256x256 S2000x256 [1] [0] [0] [1] [] []
  dot_S2000x256_S256x32_S2000x32_1_0_0_1_n_n_wf : DotDims.WF S2000x256 S256x32 S2000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x32.size a ≤ S100000x32.size a
  hwx0_7 : ∀ i : grid0.Coords, EltTy.bits .f32 = 32 ∨ (Rect.block (s := S100000x32) S2000x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S2000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v48) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x256 : Shape := ⟨2, ![256, 256]⟩
abbrev S256 : Shape := ⟨1, ![256]⟩
abbrev S256x32 : Shape := ⟨2, ![256, 32]⟩
abbrev S32 : Shape := ⟨1, ![32]⟩
abbrev S1x256 : Shape := ⟨2, ![1, 256]⟩
abbrev S_ : Shape := ⟨0, ![]⟩
abbrev S100000x32 : Shape := ⟨2, ![100000, 32]⟩
abbrev S1x32 : Shape := ⟨2, ![1, 32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S1700000x1 : Shape := ⟨2, ![1700000, 1]⟩
abbrev S1700000x32 : Shape := ⟨2, ![1700000, 32]⟩

abbrev nBuf : Space → Nat
  | .hbm => 114
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x32, .f32⟩
  | .hbm, ⟨7, _⟩ => ⟨S32, .f32⟩
  | .hbm, ⟨8, _⟩ => ⟨S100000x256, .f32⟩
  | .hbm, ⟨9, _⟩ => ⟨S1x256, .f32⟩
  | .hbm, ⟨10, _⟩ => ⟨S100000x256, .f32⟩
  | .hbm, ⟨11, _⟩ => ⟨S100000x256, .f32⟩
  | .hbm, ⟨12, _⟩ => ⟨S_, .f32⟩
  | .hbm, ⟨13, _⟩ => ⟨S100000x256, .f32⟩
  | .hbm, ⟨14, _⟩ => ⟨S100000x256, .f32⟩
  | .hbm, ⟨15, _⟩ => ⟨S100000x256, .f32⟩
  | .hbm, ⟨16, _⟩ => ⟨S1x256, .f32⟩
  | .hbm, ⟨17, _⟩ => ⟨S100000x256, .f32⟩
  | .hbm, ⟨18, _⟩ => ⟨S100000x256, .f32⟩
  | .hbm, ⟨19, _⟩ => ⟨S_, .f32⟩
  | .hbm, ⟨20, _⟩ => ⟨S100000x256, .f32⟩
  | .hbm, ⟨21, _⟩ => ⟨S100000x256, .f32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S1x1600000, .i32⟩
  | .hbm, ⟨27, _⟩ => ⟨S1600000, .i32⟩
  | .hbm, ⟨28, _⟩ => ⟨S1x1600000, .i32⟩
  | .hbm, ⟨29, _⟩ => ⟨S1600000, .i32⟩
  | .hbm, ⟨30, _⟩ => ⟨S100000, .i32⟩
  | .hbm, ⟨31, _⟩ => ⟨S1700000, .i32⟩
  | .hbm, ⟨32, _⟩ => ⟨S1700000, .i32⟩
  | .hbm, ⟨33, _⟩ => ⟨S_, .f32⟩
  | .hbm, ⟨34, _⟩ => ⟨S1700000, .f32⟩
  | .hbm, ⟨35, _⟩ => ⟨S_, .f32⟩
  | .hbm, ⟨36, _⟩ => ⟨S100000, .f32⟩
  | .hbm, ⟨37, _⟩ => ⟨S1700000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .i1⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000, .f32⟩
  | .hbm, ⟨68, _⟩ => ⟨S1700000, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S_, .f32⟩
  | .hbm, ⟨86, _⟩ => ⟨S100000x32, .f32⟩
  | .hbm, ⟨87, _⟩ => ⟨S100000x32, .f32⟩
  | .hbm, ⟨88, _⟩ => ⟨S_, .f32⟩
  | .hbm, ⟨89, _⟩ => ⟨S100000x32, .f32⟩
  | .hbm, ⟨90, _⟩ => ⟨S100000x32, .f32⟩
  | .hbm, ⟨91, _⟩ => ⟨S100000x32, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x32, .f32⟩
  | .hbm, ⟨102, _⟩ => ⟨S1700000x32, .f32⟩
  | .hbm, ⟨103, _⟩ => ⟨S_, .f32⟩
  | .hbm, ⟨104, _⟩ => ⟨S100000x32, .f32⟩
  | .hbm, ⟨105, _⟩ => ⟨S1700000x1, .i32⟩
  | .hbm, ⟨106, _⟩ => ⟨S100000x32, .f32⟩
  | .hbm, ⟨107, _⟩ => ⟨S_, .f32⟩
  | .hbm, ⟨108, _⟩ => ⟨S100000x32, .f32⟩
  | .hbm, ⟨109, _⟩ => ⟨S100000x32, .f32⟩
  | .hbm, ⟨110, _⟩ => ⟨S_, .f32⟩
  | .hbm, ⟨111, _⟩ => ⟨S100000x32, .f32⟩
  | .hbm, ⟨112, _⟩ => ⟨S100000x32, .f32⟩
  | .hbm, ⟨113, _⟩ => ⟨S100000x32, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_12 : Ref sig .tc := ⟨.hbm, 92, rfl⟩
abbrev main_v64 : Ref sig .tc := ⟨.hbm, 93, rfl⟩
abbrev main_v65 : Ref sig .tc := ⟨.hbm, 94, rfl⟩
abbrev main_c_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_15 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  dot_S100000x256_S256x256_S100000x256_1_0_0_1_n_n_wf : DotDims.WF S100000x256 S256x256 S100000x256 [1] [0] [0] [1] [] []
  dot_S100000x256_S256x32_S100000x32_1_0_0_1_n_n_wf : DotDims.WF S100000x256 S256x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  What both programs do after the encoder, as functions of whole arrays over the extended reals.

  With `ei` the [2, E] array of edges (row 0 the sources, row 1 the destinations), every node given a loop
  edge to itself, `deg` the number of edges arriving at a node, `dinv = deg^(-1/2)` where `deg > 0` (else 0)
  and `norm e = dinv (src e) * dinv (dst e)`:

  * `propagate ei h` is the array whose row `n` is the sum, over the edges `e` arriving at `n`, of
    `norm e` times row `src e` of `h` (a row gather, a product with the broadcast norm, a scatter-add into zeros);
  * `combine agg h0 = 0.9 * agg + 0.1 * h0`, entry by entry, the two factors the f32 words both programs print;
  * `appnp ei h0` is two rounds of `h ↦ combine (propagate ei h) h0` from `h = h0`.

  The index columns, the norm and the constants are the reference's own stages (functions of `ei` alone), so
  nothing about them is opened here: the reference's result stage IS `appnp` of its encoder stage, by unfolding the
  second round's stages, which repeat the first round's.
-/
import proofs.«142971_j27504970563789_1_alg».proof.Proof.ReferenceRead

noncomputable section

namespace Cert.Spec

open Idealize.ShloMosaic Cert.ReferenceIdeal Cert.ReferenceIdeal.Read

/-- An array of one row of 32 channels per node. -/
abbrev Nodes : Type := FVec Ideal S100000x32 .f32
/-- The edge array: row 0 the sources, row 1 the destinations. -/
abbrev Edges : Type := IVec S2x1600000 32

/-- One propagation step: row `n` of the result is the sum over the edges arriving at `n` of the edge's norm times
    the source's row of `h`. -/
def propagate (ei : Edges) (h : Nodes) : Nodes :=
  Host.scatterAdd scatter_S100000x32_S1700000x1_S1700000x32_1_0_0_1 (val_main_v56 (F := Ideal)) (val_main_v57 (F := Ideal) ei)
    (mulf (Host.gather gather_S100000x32_S1700000x1_S1700000x32_1_0_n_n_0_1_132 h (val_main_v52 (F := Ideal) ei)) (val_main_v54 (F := Ideal) ei))

/-- The teleport step: `0.9 * agg + 0.1 * h0`, entry by entry. -/
def combine (agg h0 : Nodes) : Nodes :=
  addf (mulf (val_main_v59 (F := Ideal)) agg) (mulf (val_main_v61 (F := Ideal)) h0)

/-- Two rounds of propagation and teleport from the encoder's output. -/
def appnp (ei : Edges) (h0 : Nodes) : Nodes :=
  combine (propagate ei (combine (propagate ei h0) h0)) h0

/-! The second round's constants and index columns are the first round's. -/

theorem zeros_again : val_main_v73 (F := Ideal) = val_main_v56 (F := Ideal) := rfl
theorem dst_again (ei : Edges) : val_main_v74 (F := Ideal) ei = val_main_v57 (F := Ideal) ei := rfl
theorem src_again (ei : Edges) : val_main_v69 (F := Ideal) ei = val_main_v52 (F := Ideal) ei := rfl
theorem norm_again (ei : Edges) : val_main_v71 (F := Ideal) ei = val_main_v54 (F := Ideal) ei := rfl
theorem keep_again : val_main_v76 (F := Ideal) = val_main_v59 (F := Ideal) := rfl
theorem teleport_again : val_main_v78 (F := Ideal) = val_main_v61 (F := Ideal) := rfl

/-- The reference's first round is one propagation and one teleport of its encoder stage. -/
theorem round_one (x0 : (⟨S100000x256, .f32⟩ : BufTy).Contents (Elt Ideal)) (x1 : (⟨S2x1600000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x32, .f32⟩ : BufTy).Contents (Elt Ideal)) (x7 : (⟨S32, .f32⟩ : BufTy).Contents (Elt Ideal)) :
    val_main_v63 (F := Ideal) x0 x1 x2 x3 x4 x5 x6 x7
      = combine (propagate x1 (val_main_v13 (F := Ideal) x0 x2 x3 x4 x5 x6 x7)) (val_main_v13 (F := Ideal) x0 x2 x3 x4 x5 x6 x7) := by
  unfold val_main_v63 val_main_v60 val_main_v62 val_main_v58 val_main_v55 val_main_v53 combine propagate
  rfl

/-- The reference's result stage is `appnp` of the edge array and its encoder stage. -/
theorem reference_eq (x0 : (⟨S100000x256, .f32⟩ : BufTy).Contents (Elt Ideal)) (x1 : (⟨S2x1600000, .i32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x32, .f32⟩ : BufTy).Contents (Elt Ideal)) (x7 : (⟨S32, .f32⟩ : BufTy).Contents (Elt Ideal)) :
    val_main_v80 (F := Ideal) x0 x1 x2 x3 x4 x5 x6 x7 = appnp x1 (val_main_v13 (F := Ideal) x0 x2 x3 x4 x5 x6 x7) := by
  unfold val_main_v80 val_main_v77 val_main_v79 val_main_v75 val_main_v72 val_main_v70
  rw [round_one, zeros_again, dst_again, src_again, norm_again, keep_again, teleport_again]
  unfold appnp
  rfl

end Cert.Spec

end
-- ==== Proof.KernelRun.lean ====
/-
  The idealized kernel program's run with its result NAMED: every weakly fair execution of @main terminates, nothing
  faulting, with the result buffer holding what the last boundary of the program's fold holds there — the contents
  `W8` that the third region's write-backs leave — and the argument arrays as launched. It is the frame run of the
  three regions among their host stretches, read at one more buffer: the last thread state holds EVERY unscoped
  buffer at the last boundary's contents, so the result is read off it exactly as the arguments are.
-/
import proofs.«142971_j27504970563789_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the library's theorem for a program of several regions are found by unifying its
-- conclusion with this one, which takes unfolding plain definitions in a metavariable's type
set_option backward.isDefEq.respectTransparency.types false in
/-- The run, with the result buffer at the last boundary's contents and the arguments unchanged. -/
theorem run_named : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelRun

end
-- ==== Proof.CombineBlocks.lean ====
/-
  The two teleport regions of the kernel program. Each is a grid of 50 points over [100000, 32] arrays in blocks of
  2000 rows: at point `t` the body loads rows `2000 t … 2000 t + 1999` of its two input arrays `a` and `b` and stores
  `0.9 * a + 0.1 * b` (the factors the f32 words `0x3F666666` and `0x3DCCCCCD`) into the same rows of the output. So the
  output array, after the 50 write-backs, is `mix a b`, the function `i ↦ 0.9 * a i + 0.1 * b i` of the whole input
  arrays as the region finds them: block `t` of what point `t` writes back is block `t` of that function (the three
  windows move together: each block's row `y` is row `2000 t + y` of its array), and every row `r` lies in the block
  of point `r / 2000`. Read entry by entry, `mix` is the specification's `combine`, whose two factors are the
  reference's constant arrays of the same two words.
-/
import proofs.«142971_j27504970563789_1_alg».proof.Proof.Gen.KernelIdeal.Frame
import proofs.«142971_j27504970563789_1_alg».proof.Proof.Spec
import Idealize.ShloMosaic.Lib.Pipeline.Value

set_option maxRecDepth 16384

noncomputable section

namespace Cert.Combine

open Cert.KernelIdeal Cert.KernelIdeal.Gen
open Idealize.ShloMosaic Idealize.ShloMosaic.TcCoe Idealize.SL.Sem
open Idealize.ShloMosaic.Pipeline (Dat)

variable {F : FTy → Type} [FloatOps F]

/-- `0.9 * a + 0.1 * b`, entry by entry. -/
def mix (a b : S100000x32.Idx → Elt F .f32) : S100000x32.Idx → Elt F .f32 :=
  fun i => FloatOps.addf (FloatOps.mulf (FloatOps.ofBits .f32 0x3F666666#32) (a i)) (FloatOps.mulf (FloatOps.ofBits .f32 0x3DCCCCCD#32) (b i))

theorem zero_offsets : (![0, 0] : Fin 2 → Nat) = fun _ => 0 := funext fun a => by fin_cases a <;> rfl

variable (V : (c : Dev nD) → (b : Ref sig .tc) → Buf (Elt F) ((c : Thread nD τ).loc b))

/-! ## Region 1 -/

/-- The body's stored value is the mix of its two loaded blocks (the two shape casts are of a shape to itself). -/
theorem payload1 (x0 x1 : Vec F S2000x32 .f32) :
    k1_pay1 x0 x1 = fun j => FloatOps.addf (FloatOps.mulf (FloatOps.ofBits .f32 0x3F666666#32) (x0 j)) (FloatOps.mulf (FloatOps.ofBits .f32 0x3DCCCCCD#32) (x1 j)) := by
  unfold k1_pay1
  dsimp only
  rw [shapeCast_self, shapeCast_self]
  rfl

/-- The three windows move together: at point `t` each stages block row `t`, block column 0. -/
theorem blocks_together1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val
    ∧ win1_2.index t (1 : Fin 2) = 0 :=
  (by decide +kernel : ∀ t : Fin grid1.N, _)

/-- What point `t` writes back is block `t` of the mix of the two input arrays as the region finds them. -/
theorem written1 (c : Dev nD) (t : Fin cfg1.N) :
    (dat1 V c).flushed 2 t = ((cfg1.win 2).blk t).view.read (Elt F) (mix (V c (Pipeline.arrRef spec1 0)) (V c (Pipeline.arrRef spec1 1))) := by
  show (cfg1.win 2).cut (grid1.coords t) ((dat1 V c).after 2 t) = _
  rw [after1_2]
  unfold out1_2
  rw [View.canon_unit_zero zero_offsets]
  simp only [View.ld_unit_zero (S := S2000x32) zero_offsets]
  rw [payload1]
  obtain ⟨e0, e1, e2, e3, e4, e5⟩ := blocks_together1 t
  funext j
  show FloatOps.addf (FloatOps.mulf (FloatOps.ofBits .f32 0x3F666666#32) (V c (Pipeline.arrRef spec1 0) (((cfg1.win 0).blk t).view.emb j)))
        (FloatOps.mulf (FloatOps.ofBits .f32 0x3DCCCCCD#32) (V c (Pipeline.arrRef spec1 1) (((cfg1.win 1).blk t).view.emb j)))
      = FloatOps.addf (FloatOps.mulf (FloatOps.ofBits .f32 0x3F666666#32) (V c (Pipeline.arrRef spec1 0) (((cfg1.win 2).blk t).view.emb j)))
        (FloatOps.mulf (FloatOps.ofBits .f32 0x3DCCCCCD#32) (V c (Pipeline.arrRef spec1 1) (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb j = ((cfg1.win 2).blk t).view.emb j := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 32 + 1 * (j 1).val = win1_2.index t (1 : Fin 2) * 32 + 1 * (j 1).val; omega
  rw [h0, h1]

/-- An index of the output array is in point `t`'s block iff each coordinate is in the block's range on its axis. -/
theorem in_block1 (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v49).slice (win1_2.rect t)).set ↔ _
  rw [View.set_slice_whole, Rect.mem_set_unit]
  exact Iff.rfl

/-- Every row `r` of the output lies in the block of point `r / 2000`. -/
theorem covered1 (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hlt : (i 0).val / 2000 < grid1.N := by rw [N_1]; omega
  obtain ⟨e0, e1, e2, e3, e4, e5⟩ := blocks_together1 ⟨(i 0).val / 2000, hlt⟩
  refine ⟨⟨(i 0).val / 2000, hlt⟩, flush1_2 _, ?_⟩
  rw [in_block1]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, hlt⟩ (1 : Fin 2) * 32 ≤ (i 1).val ∧ (i 1).val < win1_2.index ⟨(i 0).val / 2000, hlt⟩ (1 : Fin 2) * 32 + 32
    rw [e5]
    omega

/-- THE OUTPUT ARRAY of region 1 after its write-backs is the mix of its two input arrays as entered. -/
theorem final1 (c : Dev nD) :
    (dat1 V c).arrAt 2 cfg1.N = mix (V c (Pipeline.arrRef spec1 0)) (V c (Pipeline.arrRef spec1 1)) :=
  (dat1 V c).arrAt_eq_of_cover 2 _ (fun t _ => written1 V c t) (covered1)

/-! ## Region 2 -/

/-- The body's stored value is the mix of its two loaded blocks (the two shape casts are of a shape to itself). -/
theorem payload2 (x0 x1 : Vec F S2000x32 .f32) :
    k2_pay1 x0 x1 = fun j => FloatOps.addf (FloatOps.mulf (FloatOps.ofBits .f32 0x3F666666#32) (x0 j)) (FloatOps.mulf (FloatOps.ofBits .f32 0x3DCCCCCD#32) (x1 j)) := by
  unfold k2_pay1
  dsimp only
  rw [shapeCast_self, shapeCast_self]
  rfl

/-- The three windows move together: at point `t` each stages block row `t`, block column 0. -/
theorem blocks_together2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val
    ∧ win2_2.index t (1 : Fin 2) = 0 :=
  (by decide +kernel : ∀ t : Fin grid2.N, _)

/-- What point `t` writes back is block `t` of the mix of the two input arrays as the region finds them. -/
theorem written2 (c : Dev nD) (t : Fin cfg2.N) :
    (dat2 V c).flushed 2 t = ((cfg2.win 2).blk t).view.read (Elt F) (mix (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S2000x32) zero_offsets]
  rw [payload2]
  obtain ⟨e0, e1, e2, e3, e4, e5⟩ := blocks_together2 t
  funext j
  show FloatOps.addf (FloatOps.mulf (FloatOps.ofBits .f32 0x3F666666#32) (V c (Pipeline.arrRef spec2 0) (((cfg2.win 0).blk t).view.emb j)))
        (FloatOps.mulf (FloatOps.ofBits .f32 0x3DCCCCCD#32) (V c (Pipeline.arrRef spec2 1) (((cfg2.win 1).blk t).view.emb j)))
      = FloatOps.addf (FloatOps.mulf (FloatOps.ofBits .f32 0x3F666666#32) (V c (Pipeline.arrRef spec2 0) (((cfg2.win 2).blk t).view.emb j)))
        (FloatOps.mulf (FloatOps.ofBits .f32 0x3DCCCCCD#32) (V c (Pipeline.arrRef spec2 1) (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 32 + 1 * (j 1).val = win2_2.index t (1 : Fin 2) * 32 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 32 + 1 * (j 1).val = win2_2.index t (1 : Fin 2) * 32 + 1 * (j 1).val; omega
  rw [h0, h1]

/-- An index of the output array is in point `t`'s block iff each coordinate is in the block's range on its axis. -/
theorem in_block2 (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v62).slice (win2_2.rect t)).set ↔ _
  rw [View.set_slice_whole, Rect.mem_set_unit]
  exact Iff.rfl

/-- Every row `r` of the output lies in the block of point `r / 2000`. -/
theorem covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hlt : (i 0).val / 2000 < grid2.N := by rw [N_2]; omega
  obtain ⟨e0, e1, e2, e3, e4, e5⟩ := blocks_together2 ⟨(i 0).val / 2000, hlt⟩
  refine ⟨⟨(i 0).val / 2000, hlt⟩, flush2_2 _, ?_⟩
  rw [in_block2]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, hlt⟩ (1 : Fin 2) * 32 ≤ (i 1).val ∧ (i 1).val < win2_2.index ⟨(i 0).val / 2000, hlt⟩ (1 : Fin 2) * 32 + 32
    rw [e5]
    omega

/-- THE OUTPUT ARRAY of region 2 after its write-backs is the mix of its two input arrays as entered. -/
theorem final2 (c : Dev nD) :
    (dat2 V c).arrAt 2 cfg2.N = mix (V c (Pipeline.arrRef spec2 0)) (V c (Pipeline.arrRef spec2 1)) :=
  (dat2 V c).arrAt_eq_of_cover 2 _ (fun t _ => written2 V c t) (covered2)

/-! ## The mix is the specification's combination -/

/-- Entry by entry the specification's `combine` multiplies by the reference's two constant arrays, which hold the same
    two words at every index. -/
theorem mix_eq_combine (a b : Cert.Spec.Nodes) : mix (F := Ideal) a b = Cert.Spec.combine a b := by
  funext i
  unfold Cert.Spec.combine
  show _ = FloatOps.addf (FloatOps.mulf (Cert.ReferenceIdeal.Read.val_main_v59 (F := Ideal) i) (a i)) (FloatOps.mulf (Cert.ReferenceIdeal.Read.val_main_v61 (F := Ideal) i) (b i))
  rw [Cert.ReferenceIdeal.Read.val_main_v59_apply, Cert.ReferenceIdeal.Read.val_main_v61_apply]
  rfl

end Cert.Combine

end
-- ==== Proof.GlueEntry0.lean ====
import proofs.«142971_j27504970563789_1_alg».proof.Proof.Gen.KernelIdeal.Frame
import proofs.«142971_j27504970563789_1_alg».proof.Proof.Spec

noncomputable section

namespace Cert.Glue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! # What region 0 finds in its input arrays

Before the first region the host only reshapes the three bias vectors into rows: the node features and the three
weight matrices are the launch arrays themselves, and each bias row is the launch vector read through the reshape. -/

theorem entry0_x : V1 m ρ c (Pipeline.arrRef spec0 0) = m ((c : Thread nD τ).loc main_arg0) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem entry0_w1 : V1 m ρ c (Pipeline.arrRef spec0 1) = m ((c : Thread nD τ).loc main_arg2) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem entry0_b1 : V1 m ρ c (Pipeline.arrRef spec0 2) = shapeCast S1x256 (m ((c : Thread nD τ).loc main_arg3)) shapeCasts_S256_S1x256 := by
  show StableHlo.after hostOps0 (W0 m ρ c) (Proc.devRef .tc main_v0) = _
  after_results
  rfl

theorem entry0_w2 : V1 m ρ c (Pipeline.arrRef spec0 3) = m ((c : Thread nD τ).loc main_arg4) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem entry0_b2 : V1 m ρ c (Pipeline.arrRef spec0 4) = shapeCast S1x256 (m ((c : Thread nD τ).loc main_arg5)) shapeCasts_S256_S1x256 := by
  show StableHlo.after hostOps0 (W0 m ρ c) (Proc.devRef .tc main_v1) = _
  after_results
  rfl

theorem entry0_w3 : V1 m ρ c (Pipeline.arrRef spec0 5) = m ((c : Thread nD τ).loc main_arg6) :=
  StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))

theorem entry0_b3 : V1 m ρ c (Pipeline.arrRef spec0 6) = shapeCast S1x32 (m ((c : Thread nD τ).loc main_arg7)) shapeCasts_S32_S1x32 := by
  show StableHlo.after hostOps0 (W0 m ρ c) (Proc.devRef .tc main_v2) = _
  after_results
  rfl

/-- After region 0 its output array holds what the region's write-backs leave. -/
theorem exit0 : W2 m ρ c (Proc.devRef .tc main_v3) = (dat0 (V1 m ρ) c).arrAt 7 cfg0.N := W2_arr m ρ c 7

/-- After region 1 its output array holds what the region's write-backs leave. -/
theorem exit1 : W6 m ρ c (Proc.devRef .tc main_v49) = (dat1 (V5 m ρ) c).arrAt 2 cfg1.N := W6_arr m ρ c 2

/-- After region 2 its output array holds what the region's write-backs leave. -/
theorem exit2 : W8 m ρ c (Proc.devRef .tc main_v62) = (dat2 (V7 m ρ) c).arrAt 2 cfg2.N := W8_arr m ρ c 2

end Cert.Glue
end
-- ==== Proof.GlueStageA.lean ====
import proofs.«142971_j27504970563789_1_alg».proof.Proof.Gen.KernelIdeal.Frame
import proofs.«142971_j27504970563789_1_alg».proof.Proof.Spec

noncomputable section

namespace Cert.Glue

open Idealize.ShloMosaic Idealize.ShloMosaic.TcCoe Idealize.SL.Sem
open Cert.KernelIdeal Cert.KernelIdeal.Gen
open Cert.ReferenceIdeal.Read (val_main_v14 val_main_v15 val_main_v16 val_main_v17 val_main_v18 val_main_v19 val_main_v20 val_main_v21 val_main_v22 val_main_v23
  val_main_v24 val_main_v25 val_main_v26 val_main_v27 val_main_v28 val_main_v29 val_main_v30 val_main_v31 val_main_v32 val_main_v33 val_main_v34 val_main_v35
  val_main_v36 val_main_v37 val_main_v38 val_main_v39 val_main_v40 val_main_v41 val_main_v42 val_main_v43 val_main_v44 val_main_v45 val_main_v46 val_main_v47
  val_main_v48 val_main_v49 val_main_v50 val_main_v51 val_main_v52 val_main_v54 val_main_v56 val_main_v57
  val_main_cst val_main_cst_0 val_main_cst_1 val_main_cst_2 val_main_cst_3 val_main_cst_9 val_main_call2_v0 val_main_call2_v1
  val_main_c val_main_c_4 val_main_c_5 val_main_c_6 val_main_c_7 val_main_c_8)

/-! # The host stretch before the first propagation: the edge columns, the degree and its inverse square root

Every lemma here is about an arbitrary valuation `V` of the buffers in which the edge array's buffer holds `ei`:
after the stretch, the buffer named holds the stage of the same name of the plain program — the source column and
the destination column, each followed by one loop edge per node; whether a node's degree is positive; and the
inverse square root of the degree bounded below. Both programs apply the same operations to `ei`, so each equation
is the two spellings of one term. -/

variable (V : Valuation τ sig (Elt Ideal)) (ei : Cert.Spec.Edges)

/-- The source column with the loop edges appended. -/
theorem src_of (he : V (Proc.devRef .tc main_arg1) = ei) :
    StableHlo.after hostOps1 V (Proc.devRef .tc main_v9) = val_main_v19 (F := Ideal) ei := by
  subst he
  after_results
  unfold val_main_v19 val_main_v15 val_main_v14 val_main_v18
  rfl

/-- The destination column with the loop edges appended. -/
theorem dst_of (he : V (Proc.devRef .tc main_arg1) = ei) :
    StableHlo.after hostOps1 V (Proc.devRef .tc main_v10) = val_main_v20 (F := Ideal) ei := by
  subst he
  after_results
  unfold val_main_v20 val_main_v17 val_main_v16 val_main_v18
  rfl

/-- Which nodes have a positive degree (the degree is the scatter-add of ones over the destinations). -/
theorem pos_of (he : V (Proc.devRef .tc main_arg1) = ei) :
    StableHlo.after hostOps1 V (Proc.devRef .tc main_v16) = val_main_v26 (F := Ideal) ei := by
  subst he
  after_results
  unfold val_main_v26 val_main_v25 val_main_v24 val_main_v23 val_main_v22 val_main_v21 val_main_v20 val_main_v17 val_main_v16 val_main_v18
    val_main_cst val_main_cst_0 val_main_cst_1
  rfl

/-- The inverse square root of the degree bounded below by the small constant. -/
theorem rsqrt_of (he : V (Proc.devRef .tc main_arg1) = ei) :
    StableHlo.after hostOps1 V (Proc.devRef .tc main_v19) = val_main_v29 (F := Ideal) ei := by
  subst he
  after_results
  unfold val_main_v29 val_main_v28 val_main_v27 val_main_v24 val_main_v23 val_main_v22 val_main_v21 val_main_v20 val_main_v17 val_main_v16 val_main_v18
    val_main_cst val_main_cst_0 val_main_cst_2
  rfl

/-- The zero the nodes without an edge get. -/
theorem zero_of : StableHlo.after hostOps1 V (Proc.devRef .tc main_cst_3) = val_main_cst_3 (F := Ideal) := by
  after_results
  rfl

end Cert.Glue
end
-- ==== Proof.GlueStageB.lean ====
import proofs.«142971_j27504970563789_1_alg».proof.Proof.Gen.KernelIdeal.Frame
import proofs.«142971_j27504970563789_1_alg».proof.Proof.Spec

noncomputable section

namespace Cert.Glue

open Idealize.ShloMosaic Idealize.ShloMosaic.TcCoe Idealize.SL.Sem
open Cert.KernelIdeal Cert.KernelIdeal.Gen
open Cert.ReferenceIdeal.Read (val_main_v14 val_main_v15 val_main_v16 val_main_v17 val_main_v18 val_main_v19 val_main_v20 val_main_v21 val_main_v22 val_main_v23
  val_main_v24 val_main_v25 val_main_v26 val_main_v27 val_main_v28 val_main_v29 val_main_v30 val_main_v31 val_main_v32 val_main_v33 val_main_v34 val_main_v35
  val_main_v36 val_main_v37 val_main_v38 val_main_v39 val_main_v40 val_main_v41 val_main_v42 val_main_v43 val_main_v44 val_main_v45 val_main_v46 val_main_v47
  val_main_v48 val_main_v49 val_main_v50 val_main_v51 val_main_v52 val_main_v54 val_main_v56 val_main_v57
  val_main_cst val_main_cst_0 val_main_cst_1 val_main_cst_2 val_main_cst_3 val_main_cst_9 val_main_call2_v0 val_main_call2_v1
  val_main_c val_main_c_4 val_main_c_5 val_main_c_6 val_main_c_7 val_main_c_8)

/-! # The outlined selection: a node's inverse square root of its degree, or zero

The three operations of the selection read the positivity mask, the inverse square roots and the zero: in any
valuation where those buffers hold the plain program's stages, the result buffer holds its stage `dinv`. -/

variable (V : Valuation τ sig (Elt Ideal)) (ei : Cert.Spec.Edges)

/-- The selection's result of the three buffers it reads. -/
theorem where_eq : StableHlo.after hostOps1_1 V (Proc.devRef .tc main_v20)
    = select (V (Proc.devRef .tc main_v16)) (V (Proc.devRef .tc main_v19))
        (broadcastInDim S100000 ![] bcast_S_S100000 (id (V (Proc.devRef .tc main_cst_3)))) := by
  after_results
  rfl

/-- `dinv`: the inverse square root of the degree where the degree is positive, zero elsewhere. -/
theorem dinv_of (h16 : V (Proc.devRef .tc main_v16) = val_main_v26 (F := Ideal) ei)
    (h19 : V (Proc.devRef .tc main_v19) = val_main_v29 (F := Ideal) ei)
    (hc : V (Proc.devRef .tc main_cst_3) = val_main_cst_3 (F := Ideal)) :
    StableHlo.after hostOps1_1 V (Proc.devRef .tc main_v20) = val_main_v30 (F := Ideal) ei := by
  rw [where_eq, h16, h19, hc]
  rfl

end Cert.Glue
end
-- ==== Proof.GlueStageC.lean ====
import proofs.«142971_j27504970563789_1_alg».proof.Proof.Gen.KernelIdeal.Frame
import proofs.«142971_j27504970563789_1_alg».proof.Proof.Spec

noncomputable section

namespace Cert.Glue

open Idealize.ShloMosaic Idealize.ShloMosaic.TcCoe Idealize.SL.Sem
open Cert.KernelIdeal Cert.KernelIdeal.Gen
open Cert.ReferenceIdeal.Read (val_main_v14 val_main_v15 val_main_v16 val_main_v17 val_main_v18 val_main_v19 val_main_v20 val_main_v21 val_main_v22 val_main_v23
  val_main_v24 val_main_v25 val_main_v26 val_main_v27 val_main_v28 val_main_v29 val_main_v30 val_main_v31 val_main_v32 val_main_v33 val_main_v34 val_main_v35
  val_main_v36 val_main_v37 val_main_v38 val_main_v39 val_main_v40 val_main_v41 val_main_v42 val_main_v43 val_main_v44 val_main_v45 val_main_v46 val_main_v47
  val_main_v48 val_main_v49 val_main_v50 val_main_v51 val_main_v52 val_main_v54 val_main_v56 val_main_v57
  val_main_cst val_main_cst_0 val_main_cst_1 val_main_cst_2 val_main_cst_3 val_main_cst_9 val_main_call2_v0 val_main_call2_v1
  val_main_c val_main_c_4 val_main_c_5 val_main_c_6 val_main_c_7 val_main_c_8)

/-! # The host stretch of one propagation, as the first round runs it

In any valuation whose buffers hold the source column, the destination column and `dinv` (the plain program's
stages of the edge array `ei`) and whose node-feature buffer holds `h`, the stretch leaves the edge norm
`dinv (src e) * dinv (dst e)` as a column and, in the buffer the next region reads, one propagation step of `h`:
row `n` is the sum over the edges arriving at `n` of the edge's norm times row `src e` of `h`. The two programs
spell the same operations, so each equation is closed by unfolding the stages' names. -/

variable (V : Valuation τ sig (Elt Ideal)) (ei : Cert.Spec.Edges)

/-- The edge norm, as a column. -/
theorem norm_of (h9 : V (Proc.devRef .tc main_v9) = val_main_v19 (F := Ideal) ei)
    (h10 : V (Proc.devRef .tc main_v10) = val_main_v20 (F := Ideal) ei)
    (h20 : V (Proc.devRef .tc main_v20) = val_main_v30 (F := Ideal) ei) :
    StableHlo.after hostOps1_2 V (Proc.devRef .tc main_v36) = val_main_v46 (F := Ideal) ei := by
  after_results_simp
  rw [h9, h10, h20]
  unfold val_main_v46 val_main_v45 val_main_v44 val_main_v43 val_main_v42 val_main_v41 val_main_v40 val_main_v39 val_main_v38
    val_main_v37 val_main_v36 val_main_v35 val_main_v34 val_main_v33 val_main_v32 val_main_v31
    val_main_c val_main_c_4 val_main_c_5 val_main_c_6
  rfl

/-- One propagation step of `h`. -/
theorem agg_of (h : Cert.Spec.Nodes) (h9 : V (Proc.devRef .tc main_v9) = val_main_v19 (F := Ideal) ei)
    (h10 : V (Proc.devRef .tc main_v10) = val_main_v20 (F := Ideal) ei)
    (h20 : V (Proc.devRef .tc main_v20) = val_main_v30 (F := Ideal) ei)
    (h3 : V (Proc.devRef .tc main_v3) = h) :
    StableHlo.after hostOps1_2 V (Proc.devRef .tc main_v48) = Cert.Spec.propagate ei h := by
  after_results_simp
  rw [h9, h10, h20, h3]
  unfold Cert.Spec.propagate val_main_v57 val_main_v56 val_main_v54 val_main_v52 val_main_v51 val_main_v50 val_main_v49 val_main_v48 val_main_v47
    val_main_v46 val_main_v45 val_main_v44 val_main_v43 val_main_v42 val_main_v41 val_main_v40 val_main_v39 val_main_v38
    val_main_v37 val_main_v36 val_main_v35 val_main_v34 val_main_v33 val_main_v32 val_main_v31
    val_main_c val_main_c_4 val_main_c_5 val_main_c_6 val_main_c_7 val_main_c_8 val_main_cst_9
  rfl

end Cert.Glue
end
-- ==== Proof.GlueEntry1.lean ====
import proofs.«142971_j27504970563789_1_alg».proof.Proof.Gen.KernelIdeal.Frame
import proofs.«142971_j27504970563789_1_alg».proof.Proof.Spec
import proofs.«142971_j27504970563789_1_alg».proof.Proof.GlueStageA
import proofs.«142971_j27504970563789_1_alg».proof.Proof.GlueStageB
import proofs.«142971_j27504970563789_1_alg».proof.Proof.GlueStageC

noncomputable section

namespace Cert.Glue

open Idealize.ShloMosaic Idealize.ShloMosaic.TcCoe Idealize.SL.Sem
open Cert.KernelIdeal Cert.KernelIdeal.Gen
open Cert.ReferenceIdeal.Read (val_main_v19 val_main_v20 val_main_v26 val_main_v29 val_main_v30 val_main_v46 val_main_cst_3)

variable (m : (ℓ : Loc nD τ sig) → Buf (Elt Ideal) ℓ) (ρ : Dev nD → PrngReg) (c : Dev nD)

/-! # What region 1 finds in its input arrays

Between the first region and the second the host computes, from the edge array alone, the two index columns and the
edge norm, and from them and the first region's output one propagation step. Each buffer is followed through the
three stretches: a stretch that does not write it leaves it alone, and the stretch that writes it leaves the plain
program's stage of the same operations. The edge array and the first region's output are written by nothing here. -/

/-- The edge array is still the launch array after the first region. -/
theorem edges_w2 : W2 m ρ c (Proc.devRef .tc main_arg1) = m ((c : Thread nD τ).loc main_arg1) :=
  (W2_of_ne m ρ c main_arg1 (by decide)).trans (StableHlo.after_of_forall_not_mem _ _ (List.forall_iff_forall_mem.mp (by
    simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))))

/-- The source column when the selection has run. -/
theorem src_w4 : W4 m ρ c (Proc.devRef .tc main_v9) = val_main_v19 (F := Ideal) (m ((c : Thread nD τ).loc main_arg1)) :=
  (StableHlo.after_of_forall_not_mem _ _ (List.forall_iff_forall_mem.mp (by
    simp only [hostOps1_1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (src_of (W2 m ρ c) _ (edges_w2 m ρ c))

/-- The destination column when the selection has run. -/
theorem dst_w4 : W4 m ρ c (Proc.devRef .tc main_v10) = val_main_v20 (F := Ideal) (m ((c : Thread nD τ).loc main_arg1)) :=
  (StableHlo.after_of_forall_not_mem _ _ (List.forall_iff_forall_mem.mp (by
    simp only [hostOps1_1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (dst_of (W2 m ρ c) _ (edges_w2 m ρ c))

/-- `dinv` when the selection has run. -/
theorem dinv_w4 : W4 m ρ c (Proc.devRef .tc main_v20) = val_main_v30 (F := Ideal) (m ((c : Thread nD τ).loc main_arg1)) :=
  dinv_of (W3 m ρ c) _ (pos_of (W2 m ρ c) _ (edges_w2 m ρ c)) (rsqrt_of (W2 m ρ c) _ (edges_w2 m ρ c)) (zero_of (W2 m ρ c))

/-- The first region's output is untouched by the first two stretches. -/
theorem feat_w4 : W4 m ρ c (Proc.devRef .tc main_v3) = W2 m ρ c (Proc.devRef .tc main_v3) :=
  (StableHlo.after_of_forall_not_mem _ _ (List.forall_iff_forall_mem.mp (by
    simp only [hostOps1_1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (StableHlo.after_of_forall_not_mem _ _ (List.forall_iff_forall_mem.mp (by
    simp only [hostOps1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide))))

/-- Region 1's first input: one propagation step of the first region's output. -/
theorem entry1_agg : V5 m ρ c (Pipeline.arrRef spec1 0)
    = Cert.Spec.propagate (m ((c : Thread nD τ).loc main_arg1)) (W2 m ρ c (Proc.devRef .tc main_v3)) :=
  agg_of (W4 m ρ c) _ _ (src_w4 m ρ c) (dst_w4 m ρ c) (dinv_w4 m ρ c) (feat_w4 m ρ c)

/-- Region 1's second input: the first region's output. -/
theorem entry1_h0 : V5 m ρ c (Pipeline.arrRef spec1 1) = W2 m ρ c (Proc.devRef .tc main_v3) :=
  (StableHlo.after_of_forall_not_mem _ _ (List.forall_iff_forall_mem.mp (by
    simp only [hostOps1_2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (feat_w4 m ρ c)

/-! ## What the second round will need of this stretch -/

/-- The source column at region 1's entry. -/
theorem src_w5 : W5 m ρ c (Proc.devRef .tc main_v9) = val_main_v19 (F := Ideal) (m ((c : Thread nD τ).loc main_arg1)) :=
  (StableHlo.after_of_forall_not_mem _ _ (List.forall_iff_forall_mem.mp (by
    simp only [hostOps1_2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (src_w4 m ρ c)

/-- The destination column at region 1's entry. -/
theorem dst_w5 : W5 m ρ c (Proc.devRef .tc main_v10) = val_main_v20 (F := Ideal) (m ((c : Thread nD τ).loc main_arg1)) :=
  (StableHlo.after_of_forall_not_mem _ _ (List.forall_iff_forall_mem.mp (by
    simp only [hostOps1_2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (dst_w4 m ρ c)

/-- The edge norm, as a column, at region 1's entry. -/
theorem norm_w5 : W5 m ρ c (Proc.devRef .tc main_v36) = val_main_v46 (F := Ideal) (m ((c : Thread nD τ).loc main_arg1)) :=
  norm_of (W4 m ρ c) _ (src_w4 m ρ c) (dst_w4 m ρ c) (dinv_w4 m ρ c)

end Cert.Glue
end
-- ==== Proof.GlueStageD.lean ====
import proofs.«142971_j27504970563789_1_alg».proof.Proof.Gen.KernelIdeal.Frame
import proofs.«142971_j27504970563789_1_alg».proof.Proof.Spec

noncomputable section

namespace Cert.Glue

open Idealize.ShloMosaic Idealize.ShloMosaic.TcCoe Idealize.SL.Sem
open Cert.KernelIdeal Cert.KernelIdeal.Gen
open Cert.ReferenceIdeal.Read (val_main_v14 val_main_v15 val_main_v16 val_main_v17 val_main_v18 val_main_v19 val_main_v20 val_main_v21 val_main_v22 val_main_v23
  val_main_v24 val_main_v25 val_main_v26 val_main_v27 val_main_v28 val_main_v29 val_main_v30 val_main_v31 val_main_v32 val_main_v33 val_main_v34 val_main_v35
  val_main_v36 val_main_v37 val_main_v38 val_main_v39 val_main_v40 val_main_v41 val_main_v42 val_main_v43 val_main_v44 val_main_v45 val_main_v46 val_main_v47
  val_main_v48 val_main_v49 val_main_v50 val_main_v51 val_main_v52 val_main_v54 val_main_v56 val_main_v57
  val_main_cst val_main_cst_0 val_main_cst_1 val_main_cst_2 val_main_cst_3 val_main_cst_9 val_main_call2_v0 val_main_call2_v1
  val_main_c val_main_c_4 val_main_c_5 val_main_c_6 val_main_c_7 val_main_c_8)

/-! # The host stretch of one propagation, as the second round runs it

The second round reuses the edge norm the first round left and recomputes only the source column's clamp: in any
valuation whose buffers hold the source column, the destination column and the norm column (the plain program's
stages of the edge array `ei`) and whose node-feature buffer holds `h`, the stretch leaves one propagation step of
`h` in the buffer the next region reads. -/

variable (V : Valuation τ sig (Elt Ideal)) (ei : Cert.Spec.Edges)

/-- One propagation step of `h`, the norm read from where the first round left it. -/
theorem agg_again_of (h : Cert.Spec.Nodes) (h9 : V (Proc.devRef .tc main_v9) = val_main_v19 (F := Ideal) ei)
    (h10 : V (Proc.devRef .tc main_v10) = val_main_v20 (F := Ideal) ei)
    (h36 : V (Proc.devRef .tc main_v36) = val_main_v46 (F := Ideal) ei)
    (h49 : V (Proc.devRef .tc main_v49) = h) :
    StableHlo.after hostOps2 V (Proc.devRef .tc main_v61) = Cert.Spec.propagate ei h := by
  after_results_simp
  rw [h9, h10, h36, h49]
  unfold Cert.Spec.propagate val_main_v57 val_main_v56 val_main_v54 val_main_v52 val_main_v51 val_main_v50 val_main_v49 val_main_v48 val_main_v47
    val_main_c_7 val_main_c_8 val_main_cst_9
  rfl

end Cert.Glue
end
-- ==== Proof.GlueEntry2.lean ====
import proofs.«142971_j27504970563789_1_alg».proof.Proof.Gen.KernelIdeal.Frame
import proofs.«142971_j27504970563789_1_alg».proof.Proof.Spec
import proofs.«142971_j27504970563789_1_alg».proof.Proof.GlueStageD
import proofs.«142971_j27504970563789_1_alg».proof.Proof.GlueEntry1

noncomputable section

namespace Cert.Glue

open Idealize.ShloMosaic Idealize.ShloMosaic.TcCoe Idealize.SL.Sem
open Cert.KernelIdeal Cert.KernelIdeal.Gen
open Cert.ReferenceIdeal.Read (val_main_v19 val_main_v20 val_main_v26 val_main_v29 val_main_v30 val_main_v46 val_main_cst_3)

variable (m : (ℓ : Loc nD τ sig) → Buf (Elt Ideal) ℓ) (ρ : Dev nD → PrngReg) (c : Dev nD)

/-! # What region 2 finds in its input arrays

Region 1 writes only its own output: the index columns and the norm column pass through it, and the first region's
output, which region 1 reads through an input window, is left as region 1 found it. The stretch before region 2
then runs one more propagation step, of region 1's output. -/

/-- The first region's output after region 1: an input array of region 1 is left as entered. -/
theorem feat_w6 : W6 m ρ c (Proc.devRef .tc main_v3) = W2 m ρ c (Proc.devRef .tc main_v3) :=
  (W6_arr m ρ c 1).trans (((dat1 (V5 m ρ) c).arrAt_in 1 rfl _).trans ((A_eq1 (V5 m ρ) c 1).trans (entry1_h0 m ρ c)))

/-- The source column after region 1. -/
theorem src_w6 : W6 m ρ c (Proc.devRef .tc main_v9) = val_main_v19 (F := Ideal) (m ((c : Thread nD τ).loc main_arg1)) :=
  (W6_of_ne m ρ c main_v9 (by decide)).trans (src_w5 m ρ c)

/-- The destination column after region 1. -/
theorem dst_w6 : W6 m ρ c (Proc.devRef .tc main_v10) = val_main_v20 (F := Ideal) (m ((c : Thread nD τ).loc main_arg1)) :=
  (W6_of_ne m ρ c main_v10 (by decide)).trans (dst_w5 m ρ c)

/-- The norm column after region 1. -/
theorem norm_w6 : W6 m ρ c (Proc.devRef .tc main_v36) = val_main_v46 (F := Ideal) (m ((c : Thread nD τ).loc main_arg1)) :=
  (W6_of_ne m ρ c main_v36 (by decide)).trans (norm_w5 m ρ c)

/-- Region 2's first input: one propagation step of region 1's output. -/
theorem entry2_agg : V7 m ρ c (Pipeline.arrRef spec2 0)
    = Cert.Spec.propagate (m ((c : Thread nD τ).loc main_arg1)) (W6 m ρ c (Proc.devRef .tc main_v49)) :=
  agg_again_of (W6 m ρ c) _ _ (src_w6 m ρ c) (dst_w6 m ρ c) (norm_w6 m ρ c) rfl

/-- Region 2's second input: the first region's output. -/
theorem entry2_h0 : V7 m ρ c (Pipeline.arrRef spec2 1) = W2 m ρ c (Proc.devRef .tc main_v3) :=
  (StableHlo.after_of_forall_not_mem _ _ (List.forall_iff_forall_mem.mp (by
    simp only [hostOps2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)))).trans (feat_w6 m ρ c)

end Cert.Glue
end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.MlpSpec.lean ====
/-
  The encoder of this certificate as mathematics, free of any program.

  A row vector v of 256 extended reals goes through three affine layers, the first two followed by the
  rectifier t ↦ max t 0:

      v ↦ relu (v · W₁ + b₁) ↦ relu (· W₂ + b₂) ↦ · W₃ + b₃        (a row of 32 numbers).

  Each layer is the plain sum over the shared axis, (v · W)_j = ∑ a, v a * W (a, j), plus the bias row read at
  (0, j). The encoder of a whole array applies this to every row: entry (i, j) of the result depends on row i of
  the input only. That is why a block of rows of the result is the same function of the same block of rows of
  the input, whatever the number of rows in the block: the functions below take the number of rows as a
  parameter where they mention it at all.

  No algebraic law is used anywhere: both programs compute literally this nested sum, so the extended reals'
  infinities need no care.
-/
import Idealize.ShloMosaic.Lib.ValueIdx
import Idealize.ShloMosaic.PureOps.Ideal

noncomputable section

namespace Cert.Mlp

open Idealize.ShloMosaic Idealize.ShloMosaic.ValueIdx
open scoped BigOperators

/-- One affine layer on a row: entry j of v · W + b, the bias a one-row matrix. -/
def affine {k n : Nat} (w : (⟨2, ![k, n]⟩ : Shape).Idx → EReal) (b : (⟨2, ![1, n]⟩ : Shape).Idx → EReal)
    (v : Fin k → EReal) (j : Fin n) : EReal :=
  (∑ a : Fin k, v a * w (ix2 a j)) + b (ix2 (0 : Fin 1) j)

/-- The rectifier on the extended reals. -/
def relu (t : EReal) : EReal := max t 0

/-- The encoder on one row: three affine layers, the rectifier after the first two. -/
def mlpRow (w1 : (⟨2, ![256, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (w3 : (⟨2, ![256, 32]⟩ : Shape).Idx → EReal) (b3 : (⟨2, ![1, 32]⟩ : Shape).Idx → EReal)
    (v : Fin 256 → EReal) (q : Fin 32) : EReal :=
  affine w3 b3 (fun c => relu (affine w2 b2 (fun b => relu (affine w1 b1 v b)) c)) q

/-- The encoder on an array of any number of rows, entry by entry: row p of the input through `mlpRow`. -/
def mlpRows {n : Nat} (x : (⟨2, ![n, 256]⟩ : Shape).Idx → EReal)
    (w1 : (⟨2, ![256, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (w3 : (⟨2, ![256, 32]⟩ : Shape).Idx → EReal) (b3 : (⟨2, ![1, 32]⟩ : Shape).Idx → EReal)
    (p : Fin n) (q : Fin 32) : EReal :=
  mlpRow w1 b1 w2 b2 w3 b3 (fun a => x (ix2 p a)) q

/-- The encoder's output as one function of the whole arrays, index by index: at (i, j),
    (∑ c, relu ((∑ b, relu ((∑ a, x (i, a) * w1 (a, b)) + b1 (0, b)) * w2 (b, c)) + b2 (0, c)) * w3 (c, j)) + b3 (0, j),
    where relu t = max t 0 on the extended reals. -/
def mlpK (x : (⟨2, ![100000, 256]⟩ : Shape).Idx → EReal)
    (w1 : (⟨2, ![256, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (w3 : (⟨2, ![256, 32]⟩ : Shape).Idx → EReal) (b3 : (⟨2, ![1, 32]⟩ : Shape).Idx → EReal) :
    (⟨2, ![100000, 32]⟩ : Shape).Idx → EReal :=
  fun i => mlpRows x w1 b1 w2 b2 w3 b3 (i 0) (i 1)

/-- The array's encoder at explicit coordinates. -/
theorem mlpK_apply (x : (⟨2, ![100000, 256]⟩ : Shape).Idx → EReal)
    (w1 : (⟨2, ![256, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (w3 : (⟨2, ![256, 32]⟩ : Shape).Idx → EReal) (b3 : (⟨2, ![1, 32]⟩ : Shape).Idx → EReal)
    (p : Fin 100000) (q : Fin 32) :
    mlpK x w1 b1 w2 b2 w3 b3 (ix2 p q) = mlpRows x w1 b1 w2 b2 w3 b3 p q := rfl

/-- Entry (p, q) of the encoder reads the input in row p only: two arrays, of any numbers of rows, that agree on
    a row of the one and a row of the other give the same entries there. -/
theorem mlpRows_congr {n n' : Nat} (x : (⟨2, ![n, 256]⟩ : Shape).Idx → EReal) (x' : (⟨2, ![n', 256]⟩ : Shape).Idx → EReal)
    (w1 : (⟨2, ![256, 256]⟩ : Shape).Idx → EReal) (b1 : (⟨2, ![1, 256]⟩ : Shape).Idx → EReal)
    (w2 : (⟨2, ![256, 256]⟩ : Shape).Idx → EReal) (b2 : (⟨2, ![1, 256]⟩ : Shape).Idx → EReal)
    (w3 : (⟨2, ![256, 32]⟩ : Shape).Idx → EReal) (b3 : (⟨2, ![1, 32]⟩ : Shape).Idx → EReal)
    (p : Fin n) (p' : Fin n') (q : Fin 32) (h : ∀ a : Fin 256, x (ix2 p a) = x' (ix2 p' a)) :
    mlpRows x w1 b1 w2 b2 w3 b3 p q = mlpRows x' w1 b1 w2 b2 w3 b3 p' q := by
  unfold mlpRows
  exact congrArg (fun v => mlpRow w1 b1 w2 b2 w3 b3 v q) (funext h)

end Cert.Mlp

end
-- ==== Proof.MlpPayload.lean ====
/-
  What one grid point of the encoder kernel stores, read entry by entry.

  The kernel body loads a block of 2000 rows of the input and the six parameter arrays whole, and stores
  one 2000 × 32 block. Its arithmetic is three times the same figure: a rows-by-columns product into a zero
  accumulator, plus the one-row bias spread over the rows; after the first two, the maximum with zero. The
  roundings to the half-width format on the way into each product are the identity on the extended reals. So
  entry (p, q) of the stored block is the encoder of row p of the loaded block, at q.
-/
import proofs.«142971_j27504970563789_1_alg».proof.Proof.Gen.KernelIdeal.Skeleton
import proofs.«142971_j27504970563789_1_alg».proof.Proof.LibPlainMatmul
import proofs.«142971_j27504970563789_1_alg».proof.Proof.MlpSpec

noncomputable section

namespace Cert.Mlp

open Idealize.ShloMosaic Idealize.ShloMosaic.ValueIdx Cert.LibPlainMatmul
open scoped BigOperators

/-- A rows-by-columns product into the zero accumulator plus a one-row bias spread over the rows, read at (p, q):
    the affine layer of row p of the left operand, at q. -/
theorem affine_apply {n k m : Nat}
    (wf : DotDims.WF (⟨2, ![n, k]⟩ : Shape) ⟨2, ![k, m]⟩ ⟨2, ![n, m]⟩ [1] [0] [0] [1] [] [])
    {φ₁ φ₂ : FTy} (l : FVec Ideal ⟨2, ![n, k]⟩ φ₁) (r : FVec Ideal ⟨2, ![k, m]⟩ φ₂) (b : FVec Ideal ⟨2, ![1, m]⟩ .f32)
    (hsc : (⟨2, ![1, m]⟩ : Shape).ShapeCasts ⟨2, ![1, m]⟩) (hb : (⟨2, ![1, m]⟩ : Shape).Broadcasts ⟨2, ![n, m]⟩)
    (p : Fin n) (q : Fin m) :
    addf (matmul (plainDims wf) none l r (constant (F := Ideal) ⟨2, ![n, m]⟩ .f32 0x00000000#32))
        (broadcastTo ⟨2, ![n, m]⟩ (shapeCast ⟨2, ![1, m]⟩ b hsc) hb) (ix2 p q)
      = affine r b (fun a => l (ix2 p a)) q := by
  show FloatOps.matmul (plainDims wf) none l r (constant (F := Ideal) ⟨2, ![n, m]⟩ .f32 0x00000000#32) (ix2 p q)
      + broadcastTo ⟨2, ![n, m]⟩ (shapeCast ⟨2, ![1, m]⟩ b hsc) hb (ix2 p q) = _
  rw [shapeCast_self, broadcastTo_1b_ab_apply, matmul_zero_plain wf l r p q]
  rfl

/-- The same followed by the maximum with the zero word spread over the block and by a change of format: the
    rectified affine layer. -/
theorem relu_affine_apply {n k m : Nat}
    (wf : DotDims.WF (⟨2, ![n, k]⟩ : Shape) ⟨2, ![k, m]⟩ ⟨2, ![n, m]⟩ [1] [0] [0] [1] [] [])
    {φ₁ φ₂ : FTy} (l : FVec Ideal ⟨2, ![n, k]⟩ φ₁) (r : FVec Ideal ⟨2, ![k, m]⟩ φ₂) (b : FVec Ideal ⟨2, ![1, m]⟩ .f32)
    (hsc : (⟨2, ![1, m]⟩ : Shape).ShapeCasts ⟨2, ![1, m]⟩) (hb : (⟨2, ![1, m]⟩ : Shape).Broadcasts ⟨2, ![n, m]⟩)
    (hlt : FTy.bits .bf16 < FTy.bits .f32) (p : Fin n) (q : Fin m) :
    truncf (F := Ideal) .bf16 (maximumf (addf (matmul (plainDims wf) none l r (constant (F := Ideal) ⟨2, ![n, m]⟩ .f32 0x00000000#32))
        (broadcastTo ⟨2, ![n, m]⟩ (shapeCast ⟨2, ![1, m]⟩ b hsc) hb))
        (broadcast ⟨2, ![n, m]⟩ (Scalar.ofBits (F := Ideal) .f32 0x00000000#32))) hlt (ix2 p q)
      = relu (affine r b (fun a => l (ix2 p a)) q) := by
  show max (addf (matmul (plainDims wf) none l r (constant (F := Ideal) ⟨2, ![n, m]⟩ .f32 0x00000000#32))
        (broadcastTo ⟨2, ![n, m]⟩ (shapeCast ⟨2, ![1, m]⟩ b hsc) hb) (ix2 p q)) (Ideal.ofBits .f32 0x00000000#32) = _
  rw [Ideal.ofBits_zero_f32, affine_apply]
  rfl

/-- ENTRY (p, q) OF THE BLOCK A GRID POINT STORES is the encoder of row p of the block it loaded, at q. -/
theorem payload_apply (x0 : Vec Ideal Cert.KernelIdeal.S2000x256 .f32) (x1 : Vec Ideal Cert.KernelIdeal.S256x256 .f32)
    (x2 : Vec Ideal Cert.KernelIdeal.S1x256 .f32) (x3 : Vec Ideal Cert.KernelIdeal.S256x256 .f32)
    (x4 : Vec Ideal Cert.KernelIdeal.S1x256 .f32) (x5 : Vec Ideal Cert.KernelIdeal.S256x32 .f32)
    (x6 : Vec Ideal Cert.KernelIdeal.S1x32 .f32) (p : Fin 2000) (q : Fin 32) :
    Cert.KernelIdeal.Gen.k0_pay1 (F := Ideal) x0 x1 x2 x3 x4 x5 x6 (ix2 p q) = mlpRows x0 x1 x2 x3 x4 x5 x6 p q := by
  unfold Cert.KernelIdeal.Gen.k0_pay1 mlpRows mlpRow
  refine (affine_apply _ _ _ _ _ _ p q).trans ?_
  refine congrArg (fun v => affine x5 x6 v q) (funext fun c => ?_)
  refine (relu_affine_apply _ _ _ _ _ _ _ p c).trans ?_
  refine congrArg (fun v => relu (affine x3 x4 v c)) (funext fun b => ?_)
  exact relu_affine_apply _ _ _ _ _ _ _ p b

/-- THE STORED BLOCK AGAINST THE WHOLE ARRAYS. Let the loaded block be rows k·2000 … k·2000 + 1999 of an input array
    and the loaded parameter blocks the parameter arrays themselves. Then entry y of the stored block is the array's
    encoder at the entry i that lies y's row below row k·2000, in y's column: the encoder at an entry reads the input
    in that entry's row only. -/
theorem block_entry (X : (⟨2, ![100000, 256]⟩ : Shape).Idx → EReal)
    (W1 : (⟨2, ![256, 256]⟩ : Shape).Idx → EReal) (B1 : (⟨2, ![1, 256]⟩ : Shape).Idx → EReal)
    (W2 : (⟨2, ![256, 256]⟩ : Shape).Idx → EReal) (B2 : (⟨2, ![1, 256]⟩ : Shape).Idx → EReal)
    (W3 : (⟨2, ![256, 32]⟩ : Shape).Idx → EReal) (B3 : (⟨2, ![1, 32]⟩ : Shape).Idx → EReal)
    (x0 : Vec Ideal Cert.KernelIdeal.S2000x256 .f32) (x1 : Vec Ideal Cert.KernelIdeal.S256x256 .f32)
    (x2 : Vec Ideal Cert.KernelIdeal.S1x256 .f32) (x3 : Vec Ideal Cert.KernelIdeal.S256x256 .f32)
    (x4 : Vec Ideal Cert.KernelIdeal.S1x256 .f32) (x5 : Vec Ideal Cert.KernelIdeal.S256x32 .f32)
    (x6 : Vec Ideal Cert.KernelIdeal.S1x32 .f32) (k : Nat)
    (h0 : ∀ (y : (⟨2, ![2000, 256]⟩ : Shape).Idx) (i : (⟨2, ![100000, 256]⟩ : Shape).Idx),
      (i 0).val = k * 2000 + (y 0).val → (i 1).val = (y 1).val → x0 y = X i)
    (h1 : x1 = W1) (h2 : x2 = B1) (h3 : x3 = W2) (h4 : x4 = B2) (h5 : x5 = W3) (h6 : x6 = B3)
    (y : (⟨2, ![2000, 32]⟩ : Shape).Idx) (i : (⟨2, ![100000, 32]⟩ : Shape).Idx)
    (hi0 : (i 0).val = k * 2000 + (y 0).val) (hi1 : (i 1).val = (y 1).val) :
    Cert.KernelIdeal.Gen.k0_pay1 (F := Ideal) x0 x1 x2 x3 x4 x5 x6 y = mlpK X W1 B1 W2 B2 W3 B3 i := by
  subst h1 h2 h3 h4 h5 h6
  obtain ⟨p, q, rfl⟩ : ∃ (p : Fin 2000) (q : Fin 32), y = ix2 p q := ⟨y 0, y 1, eq_ix2 y⟩
  obtain ⟨P, Q, rfl⟩ : ∃ (P : Fin 100000) (Q : Fin 32), i = ix2 P Q := ⟨i 0, i 1, eq_ix2 i⟩
  obtain rfl : Q = q := Fin.ext hi1
  rw [payload_apply, mlpK_apply]
  exact mlpRows_congr x0 X x1 x2 x3 x4 x5 x6 p P Q fun a => h0 (ix2 p a) (ix2 P a) hi0 rfl

end Cert.Mlp

end
-- ==== Proof.MlpBlocks.lean ====
/-
  From the blocks the grid points store to the whole output array of the encoder region.

  The region runs over 50 grid points. At point t the input window holds rows 2000·t … 2000·t + 1999 of the input
  array (block index t on the row axis, 0 on the column axis), the six parameter windows hold their arrays whole
  (block index 0 on both axes, at every point), and the output window's block is rows 2000·t … 2000·t + 1999 of the
  output array. An element of a block sits in its array at block index × block size + its coordinate inside the
  block. The body stores, at entry (p, q) of the output block, the encoder of row p of the input block; that row is
  row 2000·t + p of the input array, so what point t writes back is block t of ONE function of the whole arrays —
  the specification's encoder. Row r of the output lies in the block of point r / 2000, so the 50 blocks cover the
  array, and after the 50 write-backs the output array is the specification's encoder of the arrays as the region
  found them.
-/
import proofs.«142971_j27504970563789_1_alg».proof.Proof.Gen.KernelIdeal.Frame
import proofs.«142971_j27504970563789_1_alg».proof.Proof.MlpPayload
import proofs.«142971_j27504970563789_1_alg».proof.Proof.MlpSpec
import Idealize.ShloMosaic.Lib.Pipeline.Value

noncomputable section

namespace Cert.Mlp

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store are at offset zero in their staging buffers. -/
theorem offsets_zero : (![0, 0] : Fin 2 → Nat) = fun _ => 0 := funext fun a => by fin_cases a <;> rfl

/-- The printed index maps, decided over the 50 points: the input's and the output's block index is the point on the
    row axis and zero on the column axis; every parameter's block index is zero on both axes. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The input windows' blocks, read off their arrays -/

/-- The input block at point t is rows 2000·t … of the input array. -/
theorem block_input (c : Dev nD) (t : Fin cfg0.N) (y : S2000x256.Idx) (i : S100000x256.Idx)
    (h0 : (i 0).val = t.val * 2000 + (y 0).val) (h1 : (i 1).val = (y 1).val) :
    (iblk0 V c 0 t : Vec Ideal S2000x256 .f32) y = (V c (Pipeline.arrRef spec0 0) : S100000x256.Idx → EReal) i := by
  obtain ⟨e0, e1, -⟩ := block_indices t
  show V c (Pipeline.arrRef spec0 0) (((cfg0.win 0).blk t).view.emb y) = V c (Pipeline.arrRef spec0 0) i
  refine congrArg (V c (Pipeline.arrRef spec0 0)) (funext fun a => Fin.ext ?_)
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- Each parameter window's block, at every point, is its whole array. -/
theorem block_w1 (c : Dev nD) (t : Fin cfg0.N) :
    (iblk0 V c 1 t : Vec Ideal S256x256 .f32) = (V c (Pipeline.arrRef spec0 1) : S256x256.Idx → EReal) := by
  obtain ⟨-, -, e0, e1, -⟩ := block_indices t
  funext y
  show V c (Pipeline.arrRef spec0 1) (((cfg0.win 1).blk t).view.emb y) = V c (Pipeline.arrRef spec0 1) y
  refine congrArg (V c (Pipeline.arrRef spec0 1)) (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem block_b1 (c : Dev nD) (t : Fin cfg0.N) :
    (iblk0 V c 2 t : Vec Ideal S1x256 .f32) = (V c (Pipeline.arrRef spec0 2) : S1x256.Idx → EReal) := by
  obtain ⟨-, -, -, -, e0, e1, -⟩ := block_indices t
  funext y
  show V c (Pipeline.arrRef spec0 2) (((cfg0.win 2).blk t).view.emb y) = V c (Pipeline.arrRef spec0 2) y
  refine congrArg (V c (Pipeline.arrRef spec0 2)) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

theorem block_w2 (c : Dev nD) (t : Fin cfg0.N) :
    (iblk0 V c 3 t : Vec Ideal S256x256 .f32) = (V c (Pipeline.arrRef spec0 3) : S256x256.Idx → EReal) := by
  obtain ⟨-, -, -, -, -, -, e0, e1, -⟩ := block_indices t
  funext y
  show V c (Pipeline.arrRef spec0 3) (((cfg0.win 3).blk t).view.emb y) = V c (Pipeline.arrRef spec0 3) y
  refine congrArg (V c (Pipeline.arrRef spec0 3)) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem block_b2 (c : Dev nD) (t : Fin cfg0.N) :
    (iblk0 V c 4 t : Vec Ideal S1x256 .f32) = (V c (Pipeline.arrRef spec0 4) : S1x256.Idx → EReal) := by
  obtain ⟨-, -, -, -, -, -, -, -, e0, e1, -⟩ := block_indices t
  funext y
  show V c (Pipeline.arrRef spec0 4) (((cfg0.win 4).blk t).view.emb y) = V c (Pipeline.arrRef spec0 4) y
  refine congrArg (V c (Pipeline.arrRef spec0 4)) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem block_w3 (c : Dev nD) (t : Fin cfg0.N) :
    (iblk0 V c 5 t : Vec Ideal S256x32 .f32) = (V c (Pipeline.arrRef spec0 5) : S256x32.Idx → EReal) := by
  obtain ⟨-, -, -, -, -, -, -, -, -, -, e0, e1, -⟩ := block_indices t
  funext y
  show V c (Pipeline.arrRef spec0 5) (((cfg0.win 5).blk t).view.emb y) = V c (Pipeline.arrRef spec0 5) y
  refine congrArg (V c (Pipeline.arrRef spec0 5)) (funext fun a => Fin.ext ?_)
  match a with
  | ⟨0, _⟩ => show win0_5.index t (0 : Fin 2) * 256 + 1 * (y 0).val = (y 0).val; omega
  | ⟨1, _⟩ => show win0_5.index t (1 : Fin 2) * 32 + 1 * (y 1).val = (y 1).val; omega

theorem block_b3 (c : Dev nD) (t : Fin cfg0.N) :
    (iblk0 V c 6 t : Vec Ideal S1x32 .f32) = (V c (Pipeline.arrRef spec0 6) : S1x32.Idx → EReal) := by
  obtain ⟨-, -, -, -, -, -, -, -, -, -, -, -, e0, e1, -⟩ := block_indices t
  funext y
  show V c (Pipeline.arrRef spec0 6) (((cfg0.win 6).blk t).view.emb y) = V c (Pipeline.arrRef spec0 6) y
  refine congrArg (V c (Pipeline.arrRef spec0 6)) (funext fun a => Fin.ext ?_)
  match a with
  | ⟨0, _⟩ => show win0_6.index t (0 : Fin 2) * 1 + 1 * (y 0).val = (y 0).val; omega
  | ⟨1, _⟩ => show win0_6.index t (1 : Fin 2) * 32 + 1 * (y 1).val = (y 1).val; omega

/-! ## What a point writes back -/

/-- WHAT POINT t WRITES BACK is block t of the specification's encoder of the arrays as the region finds them. -/
theorem flushed_eq (c : Dev nD) (t : Fin cfg0.N) :
    (dat0 V c).flushed 7 t = ((cfg0.win 7).blk t).view.read (Elt Ideal)
      (mlpK (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (V c (Pipeline.arrRef spec0 6))) := by
  show (cfg0.win 7).cut (grid0.coords t) ((dat0 V c).after 7 t) = _
  rw [after0_7]
  unfold out0_7
  rw [View.canon_unit_zero offsets_zero]
  simp only [View.ld_unit_zero (S := S2000x256) offsets_zero, View.ld_unit_zero (S := S256x256) offsets_zero,
    View.ld_unit_zero (S := S1x256) offsets_zero, View.ld_unit_zero (S := S256x32) offsets_zero,
    View.ld_unit_zero (S := S1x32) offsets_zero]
  obtain ⟨-, -, -, -, -, -, -, -, -, -, -, -, -, -, e0, e1⟩ := block_indices t
  funext y
  refine block_entry (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6))
    (iblk0 V c 0 t) (iblk0 V c 1 t) (iblk0 V c 2 t) (iblk0 V c 3 t) (iblk0 V c 4 t) (iblk0 V c 5 t) (iblk0 V c 6 t) t.val
    (fun y' i h0 h1 => block_input V c t y' i h0 h1)
    (block_w1 V c t) (block_b1 V c t) (block_w2 V c t) (block_b2 V c t) (block_w3 V c t) (block_b3 V c t)
    y (((cfg0.win 7).blk t).view.emb y) ?_ ?_
  · show win0_7.index t (0 : Fin 2) * 2000 + 1 * (y 0).val = t.val * 2000 + (y 0).val; omega
  · show win0_7.index t (1 : Fin 2) * 32 + 1 * (y 1).val = (y 1).val; omega

/-! ## The cover, and the array after the region -/

/-- An index of the output array is in point t's block iff each coordinate is in the block's range on its axis. -/
theorem mem_block (t : Fin cfg0.N) (i : S100000x32.Idx) :
    i ∈ ((cfg0.win 7).blk t).view.set ↔ ∀ a : Fin 2, win0_7.index t a * S2000x32.size a ≤ (i a).val
      ∧ (i a).val < win0_7.index t a * S2000x32.size a + S2000x32.size a := by
  show i ∈ ((View.whole main_v3).slice (win0_7.rect t)).set ↔ _
  rw [View.set_slice_whole, Rect.mem_set_unit]
  exact Iff.rfl

/-- Row r of the output array lies in the block of point r / 2000: the 50 blocks cover the array. -/
theorem covered (i : S100000x32.Idx) :
    ∃ t : Fin cfg0.N, (cfg0.win 7).flush t = true ∧ i ∈ ((cfg0.win 7).blk t).view.set := by
  have hi0 : (i 0).val < 100000 := (i 0).isLt
  have hi1 : (i 1).val < 32 := (i 1).isLt
  have hN : cfg0.N = 50 := N_0
  have ht : (i 0).val / 2000 < cfg0.N := by rw [hN]; omega
  obtain ⟨-, -, -, -, -, -, -, -, -, -, -, -, -, -, e0, e1⟩ := block_indices ⟨(i 0).val / 2000, ht⟩
  refine ⟨⟨(i 0).val / 2000, ht⟩, flush0_7 _, ?_⟩
  rw [mem_block]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_7.index ⟨(i 0).val / 2000, ht⟩ (1 : Fin 2) * 32 ≤ (i 1).val
      ∧ (i 1).val < win0_7.index ⟨(i 0).val / 2000, ht⟩ (1 : Fin 2) * 32 + 32
    rw [e1]; omega

/-- REGION 0'S OUTPUT ARRAY after its 50 write-backs, at any entry contents: the specification's encoder of the
    arrays as the region finds them. -/
theorem final0 (c : Dev nD) :
    (dat0 (F := Ideal) V c).arrAt 7 cfg0.N
      = mlpK (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5))
          (V c (Pipeline.arrRef spec0 6)) :=
  (dat0 V c).arrAt_eq_of_cover 7 _ (fun t _ => flushed_eq V c t) covered

end Cert.Mlp

end
-- ==== Proof.MlpRef.lean ====
/-
  The reference's encoder stage is the encoder of the specification.

  The reference computes the three layers on the whole arrays: a product of the whole input with each weight
  matrix, the bias vector laid out as one row and spread over the 100000 rows, the maximum with a zero spread over
  the array. Read at an entry (p, q), each product is the sum over the shared axis of row p against column q, the
  bias is the vector's entry q, and the rectified value is the maximum with zero — the affine layers of the
  specification applied to row p, with each bias vector re-laid as a one-row matrix (a vector cast to one row
  reads, at (0, q), the vector at q).
-/
import proofs.«142971_j27504970563789_1_alg».proof.Proof.ReferenceRead
import proofs.«142971_j27504970563789_1_alg».proof.Proof.Gen.KernelIdeal
import proofs.«142971_j27504970563789_1_alg».proof.Proof.MlpSpec
import Idealize.ShloMosaic.Lib.ValueLayout

noncomputable section

namespace Cert.Mlp

open Idealize.ShloMosaic Idealize.ShloMosaic.ValueIdx
open Cert.ReferenceIdeal Cert.ReferenceIdeal.Read
open scoped BigOperators

/-! ## The stages' index functions at explicit coordinates -/

theorem lidx0 (p : Fin 100000) (b k : Fin 256) : lidx_main_v0 (ix2 p b) k = ix2 p k :=
  funext fun a => Fin.ext (by match a with | ⟨0, _⟩ => rfl | ⟨1, _⟩ => rfl)
theorem ridx0 (p : Fin 100000) (b k : Fin 256) : ridx_main_v0 (ix2 p b) k = ix2 k b :=
  funext fun a => Fin.ext (by match a with | ⟨0, _⟩ => rfl | ⟨1, _⟩ => rfl)
theorem bidx0 (p : Fin 100000) (b : Fin 256) : idx_main_v1 (idx_main_v2 (ix2 p b)) = ix1 b :=
  funext fun a => Fin.ext (by match a with | ⟨0, _⟩ => rfl)
theorem lidx5 (p : Fin 100000) (c k : Fin 256) : lidx_main_v5 (ix2 p c) k = ix2 p k :=
  funext fun a => Fin.ext (by match a with | ⟨0, _⟩ => rfl | ⟨1, _⟩ => rfl)
theorem ridx5 (p : Fin 100000) (c k : Fin 256) : ridx_main_v5 (ix2 p c) k = ix2 k c :=
  funext fun a => Fin.ext (by match a with | ⟨0, _⟩ => rfl | ⟨1, _⟩ => rfl)
theorem bidx5 (p : Fin 100000) (c : Fin 256) : idx_main_v6 (idx_main_v7 (ix2 p c)) = ix1 c :=
  funext fun a => Fin.ext (by match a with | ⟨0, _⟩ => rfl)
theorem lidx10 (p : Fin 100000) (q : Fin 32) (k : Fin 256) : lidx_main_v10 (ix2 p q) k = ix2 p k :=
  funext fun a => Fin.ext (by match a with | ⟨0, _⟩ => rfl | ⟨1, _⟩ => rfl)
theorem ridx10 (p : Fin 100000) (q : Fin 32) (k : Fin 256) : ridx_main_v10 (ix2 p q) k = ix2 k q :=
  funext fun a => Fin.ext (by match a with | ⟨0, _⟩ => rfl | ⟨1, _⟩ => rfl)
theorem bidx10 (p : Fin 100000) (q : Fin 32) : idx_main_v11 (idx_main_v12 (ix2 p q)) = ix1 q :=
  funext fun a => Fin.ext (by match a with | ⟨0, _⟩ => rfl)

/-! ## The three layers -/

/-- The first rectified layer of the reference at (p, b). -/
theorem ref_layer1 (x0 : (⟨S100000x256, .f32⟩ : BufTy).Contents (Elt Ideal)) (x2 : (⟨S256x256, .f32⟩ : BufTy).Contents (Elt Ideal))
    (x3 : (⟨S256, .f32⟩ : BufTy).Contents (Elt Ideal)) (h : S256.ShapeCasts S1x256) (p : Fin 100000) (b : Fin 256) :
    val_main_v4 (F := Ideal) x0 x2 x3 (ix2 p b) = relu (affine x2 (shapeCast S1x256 x3 h) (fun a => x0 (ix2 p a)) b) := by
  rw [val_main_v4_apply, val_main_v3_apply, val_main_v0_apply, val_main_v2_apply, val_main_v1_apply,
    val_main_call0_v0_apply, val_main_call0_cst_apply, bidx0]
  simp only [lidx0, ridx0]
  unfold relu affine
  rw [shapeCast_a_1a_apply x3 h (0 : Fin 1) b]
  show max (_ + _) (Ideal.ofBits .f32 0x00000000#32) = _
  rw [Ideal.ofBits_zero_f32]

/-- The second rectified layer of the reference at (p, c), over the first. -/
theorem ref_layer2 (x0 : (⟨S100000x256, .f32⟩ : BufTy).Contents (Elt Ideal)) (x2 : (⟨S256x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) (h : S256.ShapeCasts S1x256) (p : Fin 100000) (c : Fin 256) :
    val_main_v9 (F := Ideal) x0 x2 x3 x4 x5 (ix2 p c)
      = relu (affine x4 (shapeCast S1x256 x5 h) (fun b => val_main_v4 (F := Ideal) x0 x2 x3 (ix2 p b)) c) := by
  rw [val_main_v9_apply, val_main_v8_apply, val_main_v5_apply, val_main_v7_apply, val_main_v6_apply,
    val_main_call1_v0_apply, val_main_call1_cst_apply, bidx5]
  simp only [lidx5, ridx5]
  unfold relu affine
  rw [shapeCast_a_1a_apply x5 h (0 : Fin 1) c]
  show max (_ + _) (Ideal.ofBits .f32 0x00000000#32) = _
  rw [Ideal.ofBits_zero_f32]

/-- The last layer of the reference at (p, q), over the second. -/
theorem ref_layer3 (x0 : (⟨S100000x256, .f32⟩ : BufTy).Contents (Elt Ideal)) (x2 : (⟨S256x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) (x6 : (⟨S256x32, .f32⟩ : BufTy).Contents (Elt Ideal))
    (x7 : (⟨S32, .f32⟩ : BufTy).Contents (Elt Ideal)) (h : S32.ShapeCasts S1x32) (p : Fin 100000) (q : Fin 32) :
    val_main_v13 (F := Ideal) x0 x2 x3 x4 x5 x6 x7 (ix2 p q)
      = affine x6 (shapeCast S1x32 x7 h) (fun c => val_main_v9 (F := Ideal) x0 x2 x3 x4 x5 (ix2 p c)) q := by
  rw [val_main_v13_apply, val_main_v10_apply, val_main_v12_apply, val_main_v11_apply, bidx10]
  simp only [lidx10, ridx10]
  unfold affine
  rw [shapeCast_a_1a_apply x7 h (0 : Fin 1) q]
  rfl

/-! ## The stage -/

/-- The reference's encoder stage is the specification's function of the argument arrays, the biases re-laid as
    one-row matrices. -/
theorem mlp_eq (x0 : (⟨S100000x256, .f32⟩ : BufTy).Contents (Elt Ideal)) (x2 : (⟨S256x256, .f32⟩ : BufTy).Contents (Elt Ideal))
    (x3 : (⟨S256, .f32⟩ : BufTy).Contents (Elt Ideal)) (x4 : (⟨S256x256, .f32⟩ : BufTy).Contents (Elt Ideal))
    (x5 : (⟨S256, .f32⟩ : BufTy).Contents (Elt Ideal)) (x6 : (⟨S256x32, .f32⟩ : BufTy).Contents (Elt Ideal))
    (x7 : (⟨S32, .f32⟩ : BufTy).Contents (Elt Ideal)) :
    mlpK x0 x2 (shapeCast Cert.KernelIdeal.S1x256 x3 Cert.KernelIdeal.Facts₀.shapeCasts_S256_S1x256) x4
        (shapeCast Cert.KernelIdeal.S1x256 x5 Cert.KernelIdeal.Facts₀.shapeCasts_S256_S1x256) x6
        (shapeCast Cert.KernelIdeal.S1x32 x7 Cert.KernelIdeal.Facts₀.shapeCasts_S32_S1x32)
      = val_main_v13 (F := Ideal) x0 x2 x3 x4 x5 x6 x7 := by
  funext i
  obtain ⟨p, q, rfl⟩ : ∃ (p : Fin 100000) (q : Fin 32), i = ix2 p q := ⟨i 0, i 1, eq_ix2 i⟩
  rw [mlpK_apply]
  unfold mlpRows mlpRow
  symm
  refine (ref_layer3 x0 x2 x3 x4 x5 x6 x7 Cert.KernelIdeal.Facts₀.shapeCasts_S32_S1x32 p q).trans ?_
  refine congrArg (fun v => affine x6 (shapeCast Cert.KernelIdeal.S1x32 x7 Cert.KernelIdeal.Facts₀.shapeCasts_S32_S1x32) v q)
    (funext fun c => ?_)
  refine (ref_layer2 x0 x2 x3 x4 x5 Cert.KernelIdeal.Facts₀.shapeCasts_S256_S1x256 p c).trans ?_
  refine congrArg (fun v => relu (affine x4 (shapeCast Cert.KernelIdeal.S1x256 x5 Cert.KernelIdeal.Facts₀.shapeCasts_S256_S1x256) v c))
    (funext fun b => ?_)
  exact ref_layer1 x0 x2 x3 Cert.KernelIdeal.Facts₀.shapeCasts_S256_S1x256 p b

end Cert.Mlp

end
-- ==== Proof.KernelValue.lean ====
/-
  The value of the idealized kernel program: what its result buffer holds at the last boundary of the program's fold,
  as a function of the launch arrays.

  Region 0 is entered with the node features and the three weight matrices as launched and the three biases re-laid as
  one-row matrices, and leaves in its output array the encoder's function of them, which is the reference's encoder
  stage `h0` of the same arrays. Region 1 is entered with `propagate ei h0` in its first input array (the host stretch
  between the regions applies the propagation to region 0's output) and `h0` in its second, and leaves their mix, which
  is `combine (propagate ei h0) h0`. Region 2 is entered with the propagation of region 1's output and, again, `h0`, and
  leaves their mix: two rounds of propagation and teleport, the specification's `appnp ei h0`.
-/
import proofs.«142971_j27504970563789_1_alg».proof.Proof.Gen.KernelIdeal.Frame
import proofs.«142971_j27504970563789_1_alg».proof.Proof.Spec
import proofs.«142971_j27504970563789_1_alg».proof.Proof.CombineBlocks
import proofs.«142971_j27504970563789_1_alg».proof.Proof.GlueEntry0
import proofs.«142971_j27504970563789_1_alg».proof.Proof.GlueEntry1
import proofs.«142971_j27504970563789_1_alg».proof.Proof.GlueEntry2
import proofs.«142971_j27504970563789_1_alg».proof.Proof.MlpBlocks
import proofs.«142971_j27504970563789_1_alg».proof.Proof.MlpRef

noncomputable section

namespace Cert.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- After region 0 its output array holds the reference's encoder stage of the launch arrays. -/
theorem encoder_value : W2 m ρ c (Proc.devRef .tc main_v3)
    = Cert.ReferenceIdeal.Read.val_main_v13 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Cert.Glue.exit0, Cert.Mlp.final0, Cert.Glue.entry0_x, Cert.Glue.entry0_w1, Cert.Glue.entry0_b1, Cert.Glue.entry0_w2, Cert.Glue.entry0_b2,
    Cert.Glue.entry0_w3, Cert.Glue.entry0_b3]
  exact Cert.Mlp.mlp_eq _ _ _ _ _ _ _

/-- At the last boundary the result buffer holds two rounds of propagation and teleport of the encoder's value. -/
theorem kernel_value : W8 m ρ c (Proc.devRef .tc main_v62)
    = Cert.Spec.appnp (m ((c : Thread nD τ).loc main_arg1)) (Cert.ReferenceIdeal.Read.val_main_v13 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Cert.Glue.exit2, Cert.Combine.final2, Cert.Glue.entry2_agg, Cert.Glue.entry2_h0, Cert.Glue.exit1, Cert.Combine.final1, Cert.Glue.entry1_agg,
    Cert.Glue.entry1_h0, encoder_value]
  rw [Cert.Combine.mix_eq_combine, Cert.Combine.mix_eq_combine]
  rfl

end Cert.KernelValue

end
-- ==== Proof.lean ====
/-
  The certificate of the graph network: an encoder of three dense layers (one kernel region over blocks of 2000 rows)
  followed by two rounds of propagation along the edges (host gathers and scatter-adds) and teleport back to the
  encoder's output (a pointwise kernel region per round), against the same computation in plain array operations.

  Over the extended reals the two programs compute one function. The encoder's three matrix products into zero
  accumulators are the reference's contractions, the roundings to a shorter float format on the way into them the
  identity, the bias rows the reference's broadcast biases, and relu the same maximum with zero; the propagation is the
  same list of host operations in both programs, applied to the encoder's value; and the teleport
  `0.9 * agg + 0.1 * h0` multiplies by the same two f32 words on both sides. So both result arrays are
  `Cert.Spec.appnp ei h0`, with `ei` the edge array and `h0` the encoder's value of the other seven arguments. No
  law beyond reading both sides as the same expression is used, so the finiteness of the inputs is never opened.

  The three frames are the generated ones (the reference's is its run with the result forgotten), and the ideal pass
  rewrote nothing, so the kernel program's idealization is its own text read over the extended reals.
-/
import proofs.«142971_j27504970563789_1_alg».proof.Defs
import proofs.«142971_j27504970563789_1_alg».proof.Proof.Gen.Kernel
import proofs.«142971_j27504970563789_1_alg».proof.Proof.Gen.Kernel.Skeleton
import proofs.«142971_j27504970563789_1_alg».proof.Proof.Gen.Kernel.Launch
import proofs.«142971_j27504970563789_1_alg».proof.Proof.Gen.Kernel.Points
import proofs.«142971_j27504970563789_1_alg».proof.Proof.Gen.Kernel.Frame
import proofs.«142971_j27504970563789_1_alg».proof.Proof.Gen.KernelIdeal
import proofs.«142971_j27504970563789_1_alg».proof.Proof.Gen.KernelIdeal.Skeleton
import proofs.«142971_j27504970563789_1_alg».proof.Proof.Gen.KernelIdeal.Launch
import proofs.«142971_j27504970563789_1_alg».proof.Proof.Gen.KernelIdeal.Points
import proofs.«142971_j27504970563789_1_alg».proof.Proof.Gen.KernelIdeal.Frame
import proofs.«142971_j27504970563789_1_alg».proof.Proof.Gen.ReferenceIdeal
import proofs.«142971_j27504970563789_1_alg».proof.Proof.Gen.Pre_finite_inputs
import proofs.«142971_j27504970563789_1_alg».proof.Proof.ReferenceRun
import proofs.«142971_j27504970563789_1_alg».proof.Proof.ReferenceRead
import proofs.«142971_j27504970563789_1_alg».proof.Proof.Spec
import proofs.«142971_j27504970563789_1_alg».proof.Proof.KernelRun
import proofs.«142971_j27504970563789_1_alg».proof.Proof.KernelValue
import Idealize.ShloMosaic.Adequacy
import Idealize.ShloMosaic.Init

noncomputable section

/-! ## The claims -/

namespace Cert.Proof.Claims

open Idealize.ShloMosaic Idealize.ShloMosaic.TcCoe Idealize.SL.Sem

/-- The word-level kernel program runs and leaves its arguments as launched: the frame of its three regions. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel, so there is nothing to restate. -/
theorem preserves : Cert.preserves_Kernel_KernelIdeal := trivial

/-- Over the extended reals both programs end with `appnp` of the edge array and the encoder's value of the arguments:
    the kernel program by its three regions' arrays read through the host stretches, the reference by its stages. -/
theorem algebraic : Cert.algebraic_KernelIdeal_ReferenceIdeal := by
  intro m ρ m' ρ' _ hagree
  refine ⟨fun c => Cert.Spec.appnp (m ((c.tc : Thread Cert.KernelIdeal.nD Cert.KernelIdeal.τ).loc Cert.KernelIdeal.main_arg1))
      (Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · exact (θ_run Cert.KernelIdeal.defs _ _).mono (fun r h c => ⟨(h c).1.trans (Cert.KernelValue.kernel_value m ρ c), (h c).2⟩)
      (Cert.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v80_eq, Cert.Spec.reference_eq]
    obtain ⟨a0, a1, a2, a3, a4, a5, a6, a7⟩ := hagree c
    rw [a0, a1, a2, a3, a4, a5, a6, a7]

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernel_ideal, Cert.Proof.Claims.frame_reference_ideal,
  Cert.Proof.Claims.preserves, Cert.Proof.Claims.algebraic⟩

end Cert.Proof

end
